-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S2048x1 : Shape := ⟨2, ![2048, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c2048_i32 : BitVec 32 := 2048#32
  let v20 : BitVec 32 := Scalar.muli arg0 c2048_i32
  let arg1 : BitVec 32 := BitVec.ofNat 32 (i 1).val
  let c1024_i32 : BitVec 32 := 1024#32
  let v21 : BitVec 32 := Scalar.muli arg1 c1024_i32
  let c1024_i32_10 : BitVec 32 := 1024#32
  let v22 : BitVec 32 := Scalar.addi v21 c1024_i32_10
  let v23 : BitVec 1 := Scalar.cmpi .slt v20 v22
  let c2048_i32_11 : BitVec 32 := 2048#32
  let v24 : BitVec 32 := Scalar.addi v20 c2048_i32_11
  let v25 : BitVec 1 := Scalar.cmpi .sgt v24 v21
  let v26 : BitVec 1 := Scalar.andi v23 v25
  let v27 : BitVec 32 := Scalar.extui v26
  let c0_i32 : BitVec 32 := 0#32
  let v28 : BitVec 1 := Scalar.cmpi .ne v27 c0_i32
  v28

def k0_cond2 (i : grid0.Coords) : BitVec 1 :=
  let arg0 : BitVec 32 := BitVec.ofNat 32 (i 0).val
  let c2048_i32 : BitVec 32 := 2048#32
  let v20 : BitVec 32 := Scalar.muli arg0 c2048_i32
  let arg1 : BitVec 32 := BitVec.ofNat 32 (i 1).val
  let c1024_i32 : BitVec 32 := 1024#32
  let v21 : BitVec 32 := Scalar.muli arg1 c1024_i32
  let c1024_i32_10 : BitVec 32 := 1024#32
  let v22 : BitVec 32 := Scalar.addi v21 c1024_i32_10
  let v23 : BitVec 1 := Scalar.cmpi .slt v20 v22
  let c2048_i32_11 : BitVec 32 := 2048#32
  let v24 : BitVec 32 := Scalar.addi v20 c2048_i32_11
  let v25 : BitVec 1 := Scalar.cmpi .sgt v24 v21
  let v26 : BitVec 1 := Scalar.andi v23 v25
  let v_true : BitVec 1 := 1#1
  let v29 : BitVec 1 := Scalar.xori v26 v_true
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  iota_S2048x1024_d0_w32 : S2048x1024.Iotas .tc 32 [0]
  iota_S2048x1024_d1_w32 : S2048x1024.Iotas .tc 32 [1]
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S1024x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Entry.lean ====
/-
  The region's entry. The program runs six array operations — the points rounded to bf16, their squares, the row sums of
  the squares, those sums as a column and again as a row — and then one tiled region over a grid of two by four points,
  each point computing one tile of 2048 rows by 1024 columns of the kernel matrix from a row tile of the points, a
  column tile of the points, and the matching pieces of the column and the row of squared norms.
  Stated here, for any float instance: what each array holds when the region is entered, that the argument array is
  untouched by the six operations, each window's block at a grid point, that an input's staging buffer holds its block
  at every point whether the point fetches it or not, and where on the grid a tile meets the diagonal.
-/
import proofs.«106069_j67370857005321_2_alg».proof.Proof.Gen.Kernel.Launch
import proofs.«106069_j67370857005321_2_alg».proof.Proof.Gen.Kernel.Skeleton
import proofs.«106069_j67370857005321_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- What each array of the core holds when the region is entered: the launch contents after the six array operations. -/
abbrev V (c : Dev nD) (b : Ref sig .tc) : Buf (Elt F) ((c : Thread nD τ).loc b) := StableHlo.after hostOps0 (fun b => m (c, b)) b

/-- None of the six operations allocates. -/
theorem hostOps0_fresh : (hostOps0 : List (HloOp τ sig (Elt F))).Forall fun op => op.fresh = ∅ := by
  simp only [List.Forall]; repeat' constructor

/-- The program up to the region is the six operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the six operations writes the argument array: the region finds the points as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that does
    not fetch it has the same block index as the point before), for any proof data over the region-entry arrays whose
    body leaves the block in place. The four input windows, one statement each. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where a tile meets the diagonal -/

/-- The tile at a grid point meets the diagonal — its rows `[2048·i, 2048·i + 2048)` and its columns
    `[1024·j, 1024·j + 1024)` overlap — exactly at the points 0, 1, 6 and 7 of the eight, in row-major order. -/
theorem meets_iff : ∀ t : Fin cfg0.N, k0_cond1 (grid0.coords t) = 1#1 ↔ (t.val = 0 ∨ t.val = 1 ∨ t.val = 6 ∨ t.val = 7) :=
  (by decide +kernel : ∀ t : Fin grid0.N, k0_cond1 (grid0.coords t) = 1#1 ↔ (t.val = 0 ∨ t.val = 1 ∨ t.val = 6 ∨ t.val = 7))

/-- The second branch's condition is the negation of the first's, at every grid point. -/
theorem misses_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- The output tile is stored at every grid point: by one branch or by the other. -/
theorem never_idle : ∀ t : Fin cfg0.N, idle0 4 (grid0.coords t) = false :=
  (by decide +kernel : ∀ t : Fin grid0.N, idle0 4 (grid0.coords t) = false)

/-! ## The staging memrefs at a point -/

/-- One staging buffer of the output window, through which its contents are stated (the choice does not matter). -/
abbrev VO : View sig .tc .vmem S2048x1024 .f32 := (Memref.whole cc0_stg4_0 : Memref sig .tc .vmem S2048x1024 .f32).view
/-- Each window's current staging memref at point `t`, as the pipeline passes it to the body, and its wholeness. -/
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)

end Cert.Kernel.Tile

end
-- ==== Proof.K.OnDiag.lean ====
/-
  The body on a tile that meets the diagonal: the four input blocks are loaded, the tile of kernel values is computed,
  and the first branch stores it with the entries whose global row equals their global column replaced by one; the
  second branch, whose condition is the negation of the first's, stores nothing.
-/
import proofs.«106069_j67370857005321_2_alg».proof.Proof.K.Entry

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile's staging memref on a tile that meets the diagonal, with the
    proof that on whole staging memrefs — the four inputs' at their contents, the output's at anything — the body runs to
    its end holding the inputs' as they were and the output's with those pieces written. The pieces are found by running
    the body's memory operations one after the other; which branch stores is decided by the hypotheses on the grid point. -/
noncomputable def runOn (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) :
    { L : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_body i arg2 harg2 arg3 harg3 arg4 harg4 arg5 harg5 arg6 harg6) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Tile

end
-- ==== Proof.K.OffDiag.lean ====
/-
  The body on a tile that misses the diagonal: the four input blocks are loaded, the tile of kernel values is computed,
  the first branch stores nothing, and the second stores the tile as computed.
-/
import proofs.«106069_j67370857005321_2_alg».proof.Proof.K.Entry

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile's staging memref on a tile that misses the diagonal, with the
    proof that on whole staging memrefs — the four inputs' at their contents, the output's at anything — the body runs to
    its end holding the inputs' as they were and the output's with those pieces written. The pieces are found by running
    the body's memory operations one after the other; which branch stores is decided by the hypotheses on the grid point. -/
noncomputable def runOff (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) :
    { L : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_body i arg2 harg2 arg3 harg3 arg4 harg4 arg5 harg5 arg6 harg6) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Tile

end
-- ==== Proof.K.Tiles.lean ====
/-
  What the region computes, tile by tile. At each of the eight grid points the body leaves in the output tile's staging
  buffer the pieces its one store wrote: on a tile that meets the diagonal the kernel values with ones on the diagonal,
  elsewhere the kernel values as computed. The proof data of the tiled region: each input window's buffer holds its
  block, the output's the tile; the two windows that read the rounded points hold that one array at complementary
  half shares; nothing is carried from point to point. The body obligation at a generic grid point is the run of the
  case the point is in.
-/
import proofs.«106069_j67370857005321_2_alg».proof.Proof.K.OnDiag
import proofs.«106069_j67370857005321_2_alg».proof.Proof.K.OffDiag

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tile each case leaves -/

/-- On a tile that meets the diagonal the body's one store covers the tile. -/
theorem coverOn (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) (y : S2048x1024.Idx) :
    ∃ pc ∈ (runOn c i arg2 harg2 arg3 harg3 arg4 harg4 arg5 harg5 arg6 harg6 hc1 hc2 x0 x1 x2 x3).1, y ∈ pc.1.set :=
  View.cover_of_tiledL (runOn c i arg2 harg2 arg3 harg3 arg4 harg4 arg5 harg5 arg6 harg6 hc1 hc2 x0 x1 x2 x3).1 S2048x1024.size (by sl_kernel_rfl) y

/-- What the body leaves in the output tile's buffer on a tile that meets the diagonal: its pieces read back. -/
def outOn (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) : Vec F S2048x1024 .f32 :=
  VO.read (Elt F) (VO.writes (Elt F) VO.junk (runOn c i arg2 harg2 arg3 harg3 arg4 harg4 arg5 harg5 arg6 harg6 hc1 hc2 x0 x1 x2 x3).1)

/-- On a tile that misses the diagonal the body's one store covers the tile. -/
theorem coverOff (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) (y : S2048x1024.Idx) :
    ∃ pc ∈ (runOff c i arg2 harg2 arg3 harg3 arg4 harg4 arg5 harg5 arg6 harg6 hc1 hc2 x0 x1 x2 x3).1, y ∈ pc.1.set :=
  View.cover_of_tiledL (runOff c i arg2 harg2 arg3 harg3 arg4 harg4 arg5 harg5 arg6 harg6 hc1 hc2 x0 x1 x2 x3).1 S2048x1024.size (by sl_kernel_rfl) y

/-- What the body leaves in the output tile's buffer on a tile that misses the diagonal: its pieces read back. -/
def outOff (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) : Vec F S2048x1024 .f32 :=
  VO.read (Elt F) (VO.writes (Elt F) VO.junk (runOff c i arg2 harg2 arg3 harg3 arg4 harg4 arg5 harg5 arg6 harg6 hc1 hc2 x0 x1 x2 x3).1)

/-- The tile the body leaves at grid point `t`: by the case the point is in, run at the point's memrefs and input blocks. -/
def outAt (c : Dev nD) (t : Fin cfg0.N) : Vec F S2048x1024 .f32 :=
  if h : k0_cond1 (grid0.coords t) = 1#1 then
    outOn c (grid0.coords t) (ms0 t) (hs0 t) (ms1 t) (hs1 t) (ms2 t) (hs2 t) (ms3 t) (hs3 t) (ms4 t) (hs4 t) h (fun h2 => (misses_iff t).mp h2 h) (iblk m c 0 t) (iblk m c 1 t) (iblk m c 2 t) (iblk m c 3 t)
  else
    outOff c (grid0.coords t) (ms0 t) (hs0 t) (ms1 t) (hs1 t) (ms2 t) (hs2 t) (ms3 t) (hs3 t) (ms4 t) (hs4 t) h ((misses_iff t).mpr h) (iblk m c 0 t) (iblk m c 1 t) (iblk m c 2 t) (iblk m c 3 t)

theorem outAt_on (c : Dev nD) (t : Fin cfg0.N) (h : k0_cond1 (grid0.coords t) = 1#1) :
    outAt m c t = outOn c (grid0.coords t) (ms0 t) (hs0 t) (ms1 t) (hs1 t) (ms2 t) (hs2 t) (ms3 t) (hs3 t) (ms4 t) (hs4 t) h (fun h2 => (misses_iff t).mp h2 h) (iblk m c 0 t) (iblk m c 1 t) (iblk m c 2 t) (iblk m c 3 t) := dif_pos h

theorem outAt_off (c : Dev nD) (t : Fin cfg0.N) (h : ¬ k0_cond1 (grid0.coords t) = 1#1) :
    outAt m c t = outOff c (grid0.coords t) (ms0 t) (hs0 t) (ms1 t) (hs1 t) (ms2 t) (hs2 t) (ms3 t) (hs3 t) (ms4 t) (hs4 t) h ((misses_iff t).mpr h) (iblk m c 0 t) (iblk m c 1 t) (iblk m c 2 t) (iblk m c 3 t) := dif_neg h

/-! ## The proof data -/

/-- The proof data of the region on core `c`: the arrays as the region finds them; after the body at point `t` each
    input's buffer at its block and the output's at the tile; the invariant the scoped buffers that are no staging
    buffer (there are none); the rounded points held at the left half share by the row-tile window and at the right half
    by the column-tile window, the other arrays whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

/-- The output tile is stored at every grid point, so what the body leaves in its buffer is the tile. -/
theorem leaves4 (c : Dev nD) (t : Fin cfg0.N) :
    ((dats m 0 c).leavesExact 4 t : sProp 𝕄) = owns (c : Thread nD τ) (ms4 t) fullShare ((dats m 0 c).after 4 t) := by
  unfold Dat.leavesExact
  rw [show cfg0.idle 4 (cfg0.grid.coords t) = false from never_idle t]

set_option maxHeartbeats 800000 in
/-- The body at any point: the inputs' memrefs hold their blocks; the overlap test says which case the point is in; that
    case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves4]
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : k0_cond1 (grid0.coords t) = 1#1
  · rw [outAt_on m c t h]
    unfold outOn
    iintro ⟨HΦ, Ho, ⟨%d0, H0⟩, ⟨%d1, H1⟩, ⟨%d2, H2⟩, ⟨%d3, H3⟩, ⟨%d4, H4⟩⟩
    iapply ((runOn c (grid0.coords t) (ms0 t) (hs0 t) (ms1 t) (hs1 t) (ms2 t) (hs2 t) (ms3 t) (hs3 t) (ms4 t) (hs4 t) h (fun h2 => (misses_iff t).mp h2 h) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOn _ _ _ _ _ _ _ _ _ _ _ _ _ _ _ _ _ _)
  · rw [outAt_off m c t h]
    unfold outOff
    iintro ⟨HΦ, Ho, ⟨%d0, H0⟩, ⟨%d1, H1⟩, ⟨%d2, H2⟩, ⟨%d3, H3⟩, ⟨%d4, H4⟩⟩
    iapply ((runOff c (grid0.coords t) (ms0 t) (hs0 t) (ms1 t) (hs1 t) (ms2 t) (hs2 t) (ms3 t) (hs3 t) (ms4 t) (hs4 t) h ((misses_iff t).mpr h) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOff _ _ _ _ _ _ _ _ _ _ _ _ _ _ _ _ _ _)

/-- The body obligation, at every point: the output tile is stored at every point, so its buffer is left at the tile. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.K.Launch.lean ====
/-
  The launch. The region is entered holding each array whole; the two windows that read the rounded points are handed
  that one array split into its left and right half shares, the other three windows their arrays whole. With the body
  obligation at every grid point this gives the run of the whole program: every weakly fair execution terminates
  without fault, each windowed array ends at what the write-backs of the eight tiles leave, and every other array of
  the core — the argument array among them — ends as the region found it.
-/
import proofs.«106069_j67370857005321_2_alg».proof.Proof.K.Tiles
import Idealize.ShloMosaic.Lib.Pipeline.Frame

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The distinct arrays behind the five windows are four: the rounded points, the column and the row of squared norms,
    and the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold Pipeline.arrBufs
  exact bigSep_eq_bigSepL_of_eq [main_v0, main_v3, main_v4, main_v5] (by decide) (by decide) _

/-- The arrays whole at entry make the proof data's arrays: the rounded points split between the row-tile window (left
    half) and the column-tile window (right half), the others handed over whole. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  refine (sep_mono_left (pointsTo_share (PosShare.mem_left_op_right fullShare)).1).trans ?_
  iintro ⟨⟨Hl, Hr⟩, H3, H4, H5⟩
  isplitl [Hl]
  · rw [(arr_whole0 0).set_eq_univ]; iexact Hl
  isplitl [Hr]
  · rw [(arr_whole0 1).set_eq_univ]; iexact Hr
  isplitl [H3]
  · rw [(arr_whole0 2).set_eq_univ]; iexact H3
  isplitl [H4]
  · rw [(arr_whole0 3).set_eq_univ]; iexact H4
  rw [(arr_whole0 4).set_eq_univ]; iexact H5

/-! ## The run -/

/-- The invariant between points is the scoped buffers that are no staging buffer, at every point. -/
theorem inv_eq (c : Dev nD) (t : Fin (cfg0.N + 1)) : (dats m 0 c).Φ t = Pipeline.scopedRest spec0 c := rfl

/-- The arrays no window stages bypass the region: nothing of them enters the invariant. -/
theorem rest_bypass (c : Dev nD) :
    (Pipeline.unscopedRest (Ix := Unit) (Name := ℕ) (U := UR sig nD τ) (Lvl := ℕ) spec0 c (V m c) : sProp 𝕄)
      ⊢ iprop((BI.emp : sProp 𝕄) ∗ Pipeline.unscopedRest (Ix := Unit) (Name := ℕ) (U := UR sig nD τ) (Lvl := ℕ) spec0 c (V m c)) := by
  iintro H
  isplitr
  · iempintro
  · iexact H

/-- The invariant before the first point is the scoped rest the launch hands over. -/
theorem inv_enter (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [inv_eq]
  iintro ⟨-, H⟩
  iexact H

/-- The invariant after the last point gives the scoped rest back. -/
theorem inv_leave (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [inv_eq]
  iintro H
  isplitr
  · iempintro
  · iexact H

/-- The bypassing arrays, read against the final memory, hold what the region found. -/
theorem rest_read (c : Dev nD) (s' : Phys nD τ sig (Elt F)) :
    iprop((BI.emp : sProp 𝕄) ∗ Pipeline.unscopedRest (Ix := Unit) (Name := ℕ) (U := UR sig nD τ) (Lvl := ℕ) spec0 c (V m c) ∗ SI s')
      ⊢ |={Set.univ}=> iprop(⌜∀ b ∈ Pipeline.restRefs sig spec0, s'.mem.mem ((c.tc : Thread nD τ).loc b) = V m c b⌝ ∗ SI s') := by
  iintro ⟨-, HU, HSI⟩
  unfold Pipeline.unscopedRest
  imodintro
  iapply (pointsTo_read_all (Pipeline.restRefs sig spec0) (fun b => (c.tc : Thread nD τ).loc b) (V m c) s')
  isplitl [HU] <;> iassumption

set_option backward.isDefEq.respectTransparency.types false in
/-- From any memory with zero counters: every weakly fair execution of the program terminates, each windowed array ends
    at what the tiles' write-backs leave, every other array of the core as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_entry m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := rest_bypass m) (hin := inv_enter m) (hout := inv_leave m)
    (QY := fun c s => ∀ b ∈ Pipeline.restRefs sig spec0, s.mem ((c.tc : Thread nD τ).loc b) = V m c b)
    (hY := rest_read m)
    (hQ := fun s h => h)

/-- The frame: the program runs to its end without fault and the argument array — no window stages it, so it bypasses
    the region — ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c))
    (run_main m ρ)

end Cert.Kernel.Tile

end
-- ==== Proof.KI.Entry.lean ====
/-
  The region's entry. The program runs six array operations — the points rounded to bf16, their squares, the row sums of
  the squares, those sums as a column and again as a row — and then one tiled region over a grid of two by four points,
  each point computing one tile of 2048 rows by 1024 columns of the kernel matrix from a row tile of the points, a
  column tile of the points, and the matching pieces of the column and the row of squared norms.
  Stated here, for any float instance: what each array holds when the region is entered, that the argument array is
  untouched by the six operations, each window's block at a grid point, that an input's staging buffer holds its block
  at every point whether the point fetches it or not, and where on the grid a tile meets the diagonal.
-/
import proofs.«106069_j67370857005321_2_alg».proof.Proof.Gen.KernelIdeal.Launch
import proofs.«106069_j67370857005321_2_alg».proof.Proof.Gen.KernelIdeal.Skeleton
import proofs.«106069_j67370857005321_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- What each array of the core holds when the region is entered: the launch contents after the six array operations. -/
abbrev V (c : Dev nD) (b : Ref sig .tc) : Buf (Elt F) ((c : Thread nD τ).loc b) := StableHlo.after hostOps0 (fun b => m (c, b)) b

/-- None of the six operations allocates. -/
theorem hostOps0_fresh : (hostOps0 : List (HloOp τ sig (Elt F))).Forall fun op => op.fresh = ∅ := by
  simp only [List.Forall]; repeat' constructor

/-- The program up to the region is the six operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the six operations writes the argument array: the region finds the points as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that does
    not fetch it has the same block index as the point before), for any proof data over the region-entry arrays whose
    body leaves the block in place. The four input windows, one statement each. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where a tile meets the diagonal -/

/-- The tile at a grid point meets the diagonal — its rows `[2048·i, 2048·i + 2048)` and its columns
    `[1024·j, 1024·j + 1024)` overlap — exactly at the points 0, 1, 6 and 7 of the eight, in row-major order. -/
theorem meets_iff : ∀ t : Fin cfg0.N, k0_cond1 (grid0.coords t) = 1#1 ↔ (t.val = 0 ∨ t.val = 1 ∨ t.val = 6 ∨ t.val = 7) :=
  (by decide +kernel : ∀ t : Fin grid0.N, k0_cond1 (grid0.coords t) = 1#1 ↔ (t.val = 0 ∨ t.val = 1 ∨ t.val = 6 ∨ t.val = 7))

/-- The second branch's condition is the negation of the first's, at every grid point. -/
theorem misses_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- The output tile is stored at every grid point: by one branch or by the other. -/
theorem never_idle : ∀ t : Fin cfg0.N, idle0 4 (grid0.coords t) = false :=
  (by decide +kernel : ∀ t : Fin grid0.N, idle0 4 (grid0.coords t) = false)

/-! ## The staging memrefs at a point -/

/-- One staging buffer of the output window, through which its contents are stated (the choice does not matter). -/
abbrev VO : View sig .tc .vmem S2048x1024 .f32 := (Memref.whole cc0_stg4_0 : Memref sig .tc .vmem S2048x1024 .f32).view
/-- Each window's current staging memref at point `t`, as the pipeline passes it to the body, and its wholeness. -/
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)

end Cert.KernelIdeal.Tile

end
-- ==== Proof.KI.OnDiag.lean ====
/-
  The body on a tile that meets the diagonal: the four input blocks are loaded, the tile of kernel values is computed,
  and the first branch stores it with the entries whose global row equals their global column replaced by one; the
  second branch, whose condition is the negation of the first's, stores nothing.
-/
import proofs.«106069_j67370857005321_2_alg».proof.Proof.KI.Entry

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile's staging memref on a tile that meets the diagonal, with the
    proof that on whole staging memrefs — the four inputs' at their contents, the output's at anything — the body runs to
    its end holding the inputs' as they were and the output's with those pieces written. The pieces are found by running
    the body's memory operations one after the other; which branch stores is decided by the hypotheses on the grid point. -/
noncomputable def runOn (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) :
    { L : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_body i arg2 harg2 arg3 harg3 arg4 harg4 arg5 harg5 arg6 harg6) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Tile

end
-- ==== Proof.KI.OffDiag.lean ====
/-
  The body on a tile that misses the diagonal: the four input blocks are loaded, the tile of kernel values is computed,
  the first branch stores nothing, and the second stores the tile as computed.
-/
import proofs.«106069_j67370857005321_2_alg».proof.Proof.KI.Entry

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile's staging memref on a tile that misses the diagonal, with the
    proof that on whole staging memrefs — the four inputs' at their contents, the output's at anything — the body runs to
    its end holding the inputs' as they were and the output's with those pieces written. The pieces are found by running
    the body's memory operations one after the other; which branch stores is decided by the hypotheses on the grid point. -/
noncomputable def runOff (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) :
    { L : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_body i arg2 harg2 arg3 harg3 arg4 harg4 arg5 harg5 arg6 harg6) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Tile

end
-- ==== Proof.KI.Tiles.lean ====
/-
  What the region computes, tile by tile. At each of the eight grid points the body leaves in the output tile's staging
  buffer the pieces its one store wrote: on a tile that meets the diagonal the kernel values with ones on the diagonal,
  elsewhere the kernel values as computed. The proof data of the tiled region: each input window's buffer holds its
  block, the output's the tile; the two windows that read the rounded points hold that one array at complementary
  half shares; nothing is carried from point to point. The body obligation at a generic grid point is the run of the
  case the point is in.
-/
import proofs.«106069_j67370857005321_2_alg».proof.Proof.KI.OnDiag
import proofs.«106069_j67370857005321_2_alg».proof.Proof.KI.OffDiag

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tile each case leaves -/

/-- On a tile that meets the diagonal the body's one store covers the tile. -/
theorem coverOn (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) (y : S2048x1024.Idx) :
    ∃ pc ∈ (runOn c i arg2 harg2 arg3 harg3 arg4 harg4 arg5 harg5 arg6 harg6 hc1 hc2 x0 x1 x2 x3).1, y ∈ pc.1.set :=
  View.cover_of_tiledL (runOn c i arg2 harg2 arg3 harg3 arg4 harg4 arg5 harg5 arg6 harg6 hc1 hc2 x0 x1 x2 x3).1 S2048x1024.size (by sl_kernel_rfl) y

/-- What the body leaves in the output tile's buffer on a tile that meets the diagonal: its pieces read back. -/
def outOn (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) : Vec F S2048x1024 .f32 :=
  VO.read (Elt F) (VO.writes (Elt F) VO.junk (runOn c i arg2 harg2 arg3 harg3 arg4 harg4 arg5 harg5 arg6 harg6 hc1 hc2 x0 x1 x2 x3).1)

/-- On a tile that misses the diagonal the body's one store covers the tile. -/
theorem coverOff (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) (y : S2048x1024.Idx) :
    ∃ pc ∈ (runOff c i arg2 harg2 arg3 harg3 arg4 harg4 arg5 harg5 arg6 harg6 hc1 hc2 x0 x1 x2 x3).1, y ∈ pc.1.set :=
  View.cover_of_tiledL (runOff c i arg2 harg2 arg3 harg3 arg4 harg4 arg5 harg5 arg6 harg6 hc1 hc2 x0 x1 x2 x3).1 S2048x1024.size (by sl_kernel_rfl) y

/-- What the body leaves in the output tile's buffer on a tile that misses the diagonal: its pieces read back. -/
def outOff (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) : Vec F S2048x1024 .f32 :=
  VO.read (Elt F) (VO.writes (Elt F) VO.junk (runOff c i arg2 harg2 arg3 harg3 arg4 harg4 arg5 harg5 arg6 harg6 hc1 hc2 x0 x1 x2 x3).1)

/-- The tile the body leaves at grid point `t`: by the case the point is in, run at the point's memrefs and input blocks. -/
def outAt (c : Dev nD) (t : Fin cfg0.N) : Vec F S2048x1024 .f32 :=
  if h : k0_cond1 (grid0.coords t) = 1#1 then
    outOn c (grid0.coords t) (ms0 t) (hs0 t) (ms1 t) (hs1 t) (ms2 t) (hs2 t) (ms3 t) (hs3 t) (ms4 t) (hs4 t) h (fun h2 => (misses_iff t).mp h2 h) (iblk m c 0 t) (iblk m c 1 t) (iblk m c 2 t) (iblk m c 3 t)
  else
    outOff c (grid0.coords t) (ms0 t) (hs0 t) (ms1 t) (hs1 t) (ms2 t) (hs2 t) (ms3 t) (hs3 t) (ms4 t) (hs4 t) h ((misses_iff t).mpr h) (iblk m c 0 t) (iblk m c 1 t) (iblk m c 2 t) (iblk m c 3 t)

theorem outAt_on (c : Dev nD) (t : Fin cfg0.N) (h : k0_cond1 (grid0.coords t) = 1#1) :
    outAt m c t = outOn c (grid0.coords t) (ms0 t) (hs0 t) (ms1 t) (hs1 t) (ms2 t) (hs2 t) (ms3 t) (hs3 t) (ms4 t) (hs4 t) h (fun h2 => (misses_iff t).mp h2 h) (iblk m c 0 t) (iblk m c 1 t) (iblk m c 2 t) (iblk m c 3 t) := dif_pos h

theorem outAt_off (c : Dev nD) (t : Fin cfg0.N) (h : ¬ k0_cond1 (grid0.coords t) = 1#1) :
    outAt m c t = outOff c (grid0.coords t) (ms0 t) (hs0 t) (ms1 t) (hs1 t) (ms2 t) (hs2 t) (ms3 t) (hs3 t) (ms4 t) (hs4 t) h ((misses_iff t).mpr h) (iblk m c 0 t) (iblk m c 1 t) (iblk m c 2 t) (iblk m c 3 t) := dif_neg h

/-! ## The proof data -/

/-- The proof data of the region on core `c`: the arrays as the region finds them; after the body at point `t` each
    input's buffer at its block and the output's at the tile; the invariant the scoped buffers that are no staging
    buffer (there are none); the rounded points held at the left half share by the row-tile window and at the right half
    by the column-tile window, the other arrays whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

/-- The output tile is stored at every grid point, so what the body leaves in its buffer is the tile. -/
theorem leaves4 (c : Dev nD) (t : Fin cfg0.N) :
    ((dats m 0 c).leavesExact 4 t : sProp 𝕄) = owns (c : Thread nD τ) (ms4 t) fullShare ((dats m 0 c).after 4 t) := by
  unfold Dat.leavesExact
  rw [show cfg0.idle 4 (cfg0.grid.coords t) = false from never_idle t]

set_option maxHeartbeats 800000 in
/-- The body at any point: the inputs' memrefs hold their blocks; the overlap test says which case the point is in; that
    case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves4]
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : k0_cond1 (grid0.coords t) = 1#1
  · rw [outAt_on m c t h]
    unfold outOn
    iintro ⟨HΦ, Ho, ⟨%d0, H0⟩, ⟨%d1, H1⟩, ⟨%d2, H2⟩, ⟨%d3, H3⟩, ⟨%d4, H4⟩⟩
    iapply ((runOn c (grid0.coords t) (ms0 t) (hs0 t) (ms1 t) (hs1 t) (ms2 t) (hs2 t) (ms3 t) (hs3 t) (ms4 t) (hs4 t) h (fun h2 => (misses_iff t).mp h2 h) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOn _ _ _ _ _ _ _ _ _ _ _ _ _ _ _ _ _ _)
  · rw [outAt_off m c t h]
    unfold outOff
    iintro ⟨HΦ, Ho, ⟨%d0, H0⟩, ⟨%d1, H1⟩, ⟨%d2, H2⟩, ⟨%d3, H3⟩, ⟨%d4, H4⟩⟩
    iapply ((runOff c (grid0.coords t) (ms0 t) (hs0 t) (ms1 t) (hs1 t) (ms2 t) (hs2 t) (ms3 t) (hs3 t) (ms4 t) (hs4 t) h ((misses_iff t).mpr h) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOff _ _ _ _ _ _ _ _ _ _ _ _ _ _ _ _ _ _)

/-- The body obligation, at every point: the output tile is stored at every point, so its buffer is left at the tile. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.KI.Launch.lean ====
/-
  The launch. The region is entered holding each array whole; the two windows that read the rounded points are handed
  that one array split into its left and right half shares, the other three windows their arrays whole. With the body
  obligation at every grid point this gives the run of the whole program: every weakly fair execution terminates
  without fault, each windowed array ends at what the write-backs of the eight tiles leave, and every other array of
  the core — the argument array among them — ends as the region found it.
-/
import proofs.«106069_j67370857005321_2_alg».proof.Proof.KI.Tiles
import Idealize.ShloMosaic.Lib.Pipeline.Frame

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The distinct arrays behind the five windows are four: the rounded points, the column and the row of squared norms,
    and the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold Pipeline.arrBufs
  exact bigSep_eq_bigSepL_of_eq [main_v0, main_v3, main_v4, main_v5] (by decide) (by decide) _

/-- The arrays whole at entry make the proof data's arrays: the rounded points split between the row-tile window (left
    half) and the column-tile window (right half), the others handed over whole. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  refine (sep_mono_left (pointsTo_share (PosShare.mem_left_op_right fullShare)).1).trans ?_
  iintro ⟨⟨Hl, Hr⟩, H3, H4, H5⟩
  isplitl [Hl]
  · rw [(arr_whole0 0).set_eq_univ]; iexact Hl
  isplitl [Hr]
  · rw [(arr_whole0 1).set_eq_univ]; iexact Hr
  isplitl [H3]
  · rw [(arr_whole0 2).set_eq_univ]; iexact H3
  isplitl [H4]
  · rw [(arr_whole0 3).set_eq_univ]; iexact H4
  rw [(arr_whole0 4).set_eq_univ]; iexact H5

/-! ## The run -/

/-- The invariant between points is the scoped buffers that are no staging buffer, at every point. -/
theorem inv_eq (c : Dev nD) (t : Fin (cfg0.N + 1)) : (dats m 0 c).Φ t = Pipeline.scopedRest spec0 c := rfl

/-- The arrays no window stages bypass the region: nothing of them enters the invariant. -/
theorem rest_bypass (c : Dev nD) :
    (Pipeline.unscopedRest (Ix := Unit) (Name := ℕ) (U := UR sig nD τ) (Lvl := ℕ) spec0 c (V m c) : sProp 𝕄)
      ⊢ iprop((BI.emp : sProp 𝕄) ∗ Pipeline.unscopedRest (Ix := Unit) (Name := ℕ) (U := UR sig nD τ) (Lvl := ℕ) spec0 c (V m c)) := by
  iintro H
  isplitr
  · iempintro
  · iexact H

/-- The invariant before the first point is the scoped rest the launch hands over. -/
theorem inv_enter (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [inv_eq]
  iintro ⟨-, H⟩
  iexact H

/-- The invariant after the last point gives the scoped rest back. -/
theorem inv_leave (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [inv_eq]
  iintro H
  isplitr
  · iempintro
  · iexact H

/-- The bypassing arrays, read against the final memory, hold what the region found. -/
theorem rest_read (c : Dev nD) (s' : Phys nD τ sig (Elt F)) :
    iprop((BI.emp : sProp 𝕄) ∗ Pipeline.unscopedRest (Ix := Unit) (Name := ℕ) (U := UR sig nD τ) (Lvl := ℕ) spec0 c (V m c) ∗ SI s')
      ⊢ |={Set.univ}=> iprop(⌜∀ b ∈ Pipeline.restRefs sig spec0, s'.mem.mem ((c.tc : Thread nD τ).loc b) = V m c b⌝ ∗ SI s') := by
  iintro ⟨-, HU, HSI⟩
  unfold Pipeline.unscopedRest
  imodintro
  iapply (pointsTo_read_all (Pipeline.restRefs sig spec0) (fun b => (c.tc : Thread nD τ).loc b) (V m c) s')
  isplitl [HU] <;> iassumption

set_option backward.isDefEq.respectTransparency.types false in
/-- From any memory with zero counters: every weakly fair execution of the program terminates, each windowed array ends
    at what the tiles' write-backs leave, every other array of the core as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_entry m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := rest_bypass m) (hin := inv_enter m) (hout := inv_leave m)
    (QY := fun c s => ∀ b ∈ Pipeline.restRefs sig spec0, s.mem ((c.tc : Thread nD τ).loc b) = V m c b)
    (hY := rest_read m)
    (hQ := fun s h => h)

/-- The frame: the program runs to its end without fault and the argument array — no window stages it, so it bypasses
    the region — ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c))
    (run_main m ρ)

end Cert.KernelIdeal.Tile

end
-- ==== Proof.KI.TileValue.lean ====
/-
  The tile each case leaves, read back: the body's one store covers the tile, so the pieces read back are the stored
  value — the kernel values with ones on the diagonal on a tile that meets it, the kernel values as computed elsewhere.
-/
import proofs.«106069_j67370857005321_2_alg».proof.Proof.KI.Tiles
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-tile rectangle, however they are spelt. -/
private theorem hz : (![0, 0] : Fin 2 → Nat) = fun _ => 0 := funext fun a => by fin_cases a <;> rfl

/-- On a tile that meets the diagonal the buffer is left at the second payload of the loaded blocks. -/
theorem outOn_eq (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : k0_cond1 i = 1#1) (hc2 : ¬ k0_cond2 i = 1#1)
    (x0 : Vec F S2048x1024 .bf16) (x1 : Vec F S1024x1024 .bf16) (x2 : Vec F S2048x1 .f32) (x3 : Vec F S1x1024 .f32) :
    outOn c i arg2 harg2 arg3 harg3 arg4 harg4 arg5 harg5 arg6 harg6 hc1 hc2 x0 x1 x2 x3 = k0_pay2 i x0 x1 x2 x3 := by
  unfold outOn
  rw [View.read_writes_eq_canon _ _ _ (coverOn c i arg2 harg2 arg3 harg3 arg4 harg4 arg5 harg5 arg6 harg6 hc1 hc2 x0 x1 x2 x3)]
  unfold runOn
  dsimp only
  rw [View.canon_unit_zero hz]
  simp only [View.readAt_eq_ld, harg2.read_unread, harg3.read_unread, harg4.read_unread, harg5.read_unread,
    View.ld_unit_zero (S := S2048x1024) hz, View.ld_unit_zero (S := S1024x1024) hz, View.ld_unit_zero (S := S2048x1) hz,
    View.ld_unit_zero (S := S1x1024) hz]

/-- On a tile that misses the diagonal the buffer is left at the first payload of the loaded blocks. -/
theorem outOff_eq (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1024 .f32) (harg6 : arg6.IsWhole) (hc1 : ¬ k0_cond1 i = 1#1) (hc2 : k0_cond2 i = 1#1)
    (x0 : Vec F S2048x1024 .bf16) (x1 : Vec F S1024x1024 .bf16) (x2 : Vec F S2048x1 .f32) (x3 : Vec F S1x1024 .f32) :
    outOff c i arg2 harg2 arg3 harg3 arg4 harg4 arg5 harg5 arg6 harg6 hc1 hc2 x0 x1 x2 x3 = k0_pay1 x0 x1 x2 x3 := by
  unfold outOff
  rw [View.read_writes_eq_canon _ _ _ (coverOff c i arg2 harg2 arg3 harg3 arg4 harg4 arg5 harg5 arg6 harg6 hc1 hc2 x0 x1 x2 x3)]
  unfold runOff
  dsimp only
  rw [View.canon_unit_zero hz]
  simp only [View.readAt_eq_ld, harg2.read_unread, harg3.read_unread, harg4.read_unread, harg5.read_unread,
    View.ld_unit_zero (S := S2048x1024) hz, View.ld_unit_zero (S := S1024x1024) hz, View.ld_unit_zero (S := S2048x1) hz,
    View.ld_unit_zero (S := S1x1024) hz]

end Cert.KernelIdeal.Tile

end
-- ==== Proof.GaussSpec.lean ====
/-
  The Gaussian kernel matrix of 4096 points in dimension 1024, entry by entry, over the extended reals.

  For a point matrix `X` (row `r` the point `x_r`) write `s_r = 0 + Σ_k x_{r,k}²` for the squared norm of a row as a
  sum started at zero, `g_{r,c} = Σ_k x_{r,k} · x_{c,k}` for the Gram entry, and
  `d_{r,c} = max ((s_r + s_c) − 2 · g_{r,c}) 0` for the squared distance, clamped below at zero.
  Two forms of the kernel entry are stated: the one that halves the distance by a product with `−1/2` and sets the
  diagonal to `1` outright (`kerEntry`), and the one that negates the distance and divides by `2` at every entry
  (`refEntry`). The float constants are kept as the binary words both programs print.
-/
import Idealize.ShloMosaic.PureOps.Ideal
import Idealize.ShloMosaic.Lib.ValueIdx

noncomputable section

namespace Cert.GaussSpec

open Idealize.ShloMosaic Idealize.ShloMosaic.ValueIdx
open scoped BigOperators

/-- The points: 4096 rows of 1024 coordinates. -/
abbrev SX : Shape := ⟨2, ![4096, 1024]⟩
/-- The kernel matrix: 4096 by 4096. -/
abbrev SO : Shape := ⟨2, ![4096, 4096]⟩

/-- The squared norm of row `r`, as a sum of squares started at the zero word. -/
def rowSq (X : SX.Idx → EReal) (r : Fin 4096) : EReal :=
  Ideal.ofBits .f32 0x00000000#32 + ∑ k : Fin 1024, X (ix2 r k) * X (ix2 r k)

/-- The Gram entry: the inner product of rows `r` and `c`. -/
def gram (X : SX.Idx → EReal) (r c : Fin 4096) : EReal :=
  ∑ k : Fin 1024, X (ix2 r k) * X (ix2 c k)

/-- The squared distance of rows `r` and `c` by the polarization identity, clamped below at zero. -/
def dist (X : SX.Idx → EReal) (r c : Fin 4096) : EReal :=
  max ((rowSq X r + rowSq X c) - Ideal.ofBits .f32 0x40000000#32 * gram X r c) (Ideal.ofBits .f32 0x00000000#32)

/-- The kernel entry with the diagonal set to one outright and the distance halved by a product with `−1/2`. -/
def kerEntry (X : SX.Idx → EReal) (r c : Fin 4096) : EReal :=
  if r = c then Ideal.ofBits .f32 0x3F800000#32 else Ideal.exp (dist X r c * Ideal.ofBits .f32 0xBF000000#32)

/-- The kernel entry with the distance negated and divided by two, at every entry. -/
def refEntry (X : SX.Idx → EReal) (r c : Fin 4096) : EReal :=
  Ideal.exp (Ideal.div (-(dist X r c)) (Ideal.ofBits .f32 0x40000000#32))

/-- The whole kernel matrix in the first form. -/
def kerOut (X : SX.Idx → EReal) : SO.Idx → EReal := fun i => kerEntry X (i 0) (i 1)

/-- The whole kernel matrix in the second form. -/
def refOut (X : SX.Idx → EReal) : SO.Idx → EReal := fun i => refEntry X (i 0) (i 1)

end Cert.GaussSpec

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.KernelPayload.lean ====
/-
  The two values the kernel body stores, read at an index of the 2048 by 1024 output tile.

  The first stored value is, at the tile position (p, q), the exponential of the clamped squared distance times −1/2:
  the distance is the row-norm column at p plus the row-norm row at q minus twice the inner product of row p of the
  left block with row q of the right block (both blocks are contracted along their second axis).  The second stored
  value agrees with the first except where the global row, tile row offset plus p, equals the global column, tile column
  offset plus q: there it is the word of 1.  The conditions under which the body stores the one or the other are the
  same bit and its complement, and where the bit is not set no position of the tile lies on the diagonal.
-/
import proofs.«106069_j67370857005321_2_alg».proof.Proof.Gen.KernelIdeal.Skeleton
import proofs.«106069_j67370857005321_2_alg».proof.Proof.GaussSpec
import proofs.«106069_j67370857005321_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.ValueIdx
open Cert.KernelIdeal Cert.KernelIdeal.Facts₀
open scoped BigOperators

variable [Cert.KernelIdeal.Facts]

/-! ## The block product at an index -/

/-- The dimension numbers of the block product: both operands contract their second axis. -/
abbrev tileDot : DotDims S2048x1024 S1024x1024 S2048x1024 := dot_S2048x1024_S1024x1024_S2048x1024_1_1_0_0_n_n

/-- On the left operand's first axis the operand index of the product is the output row. -/
theorem tileDot_lhs0 (j : S2048x1024.Idx) (k : tileDot.contr.Idx) : (tileDot.lhsIdx j k 0).val = (j 0).val := by
  unfold DotDims.lhsIdx
  rw [dif_neg (show ¬(0 : Fin S2048x1024.rank) ∈ tileDot.lhsBatch by decide),
    dif_pos (show (0 : Fin S2048x1024.rank) ∈ tileDot.lhsNonContracting by decide)]
  rfl

/-- On the left operand's second axis it is the contraction coordinate. -/
theorem tileDot_lhs1 (j : S2048x1024.Idx) (k : tileDot.contr.Idx) : (tileDot.lhsIdx j k 1).val = (k ⟨0, by decide⟩).val :=
  tileDot.lhsIdx_val_of_single rfl j k

/-- On the right operand's first axis the operand index is the output column. -/
theorem tileDot_rhs0 (j : S2048x1024.Idx) (k : tileDot.contr.Idx) : (tileDot.rhsIdx j k 0).val = (j 1).val := by
  unfold DotDims.rhsIdx
  rw [dif_neg (show ¬(0 : Fin S1024x1024.rank) ∈ tileDot.rhsBatch by decide),
    dif_pos (show (0 : Fin S1024x1024.rank) ∈ tileDot.rhsNonContracting by decide)]
  rfl

/-- On the right operand's second axis it is the contraction coordinate. -/
theorem tileDot_rhs1 (j : S2048x1024.Idx) (k : tileDot.contr.Idx) : (tileDot.rhsIdx j k 1).val = (k ⟨0, by decide⟩).val :=
  tileDot.rhsIdx_val_of_single rfl j k

/-- The block product into the zero accumulator, at (p, q), is the inner product of row p of the left block with row q
    of the right block. -/
theorem matmul_tile_apply (A : FVec Ideal S2048x1024 .bf16) (B : FVec Ideal S1024x1024 .bf16) (p : Fin 2048) (q : Fin 1024) :
    matmul tileDot none A B (constant (F := Ideal) S2048x1024 .f32 0x00000000#32) (ix2 p q)
      = ∑ k : Fin 1024, A (ix2 p k) * B (ix2 q k) := by
  simp only [matmul]
  rw [Ideal.matmul_constant_zero_apply, ← Equiv.sum_comp (ValueIdx.contrEquiv1 tileDot 1024 rfl rfl).symm]
  refine Finset.sum_congr rfl fun k _ => ?_
  have hk := ValueIdx.contrEquiv1_symm_val tileDot 1024 rfl rfl k
  have el : tileDot.lhsIdx (ix2 p q) ((ValueIdx.contrEquiv1 tileDot 1024 rfl rfl).symm k) = ix2 p k :=
    funext fun a => Fin.ext (by
      match a with
      | ⟨0, _⟩ => exact tileDot_lhs0 _ _
      | ⟨1, _⟩ => exact (tileDot_lhs1 _ _).trans hk)
  have er : tileDot.rhsIdx (ix2 p q) ((ValueIdx.contrEquiv1 tileDot 1024 rfl rfl).symm k) = ix2 q k :=
    funext fun a => Fin.ext (by
      match a with
      | ⟨0, _⟩ => exact tileDot_rhs0 _ _
      | ⟨1, _⟩ => exact (tileDot_rhs1 _ _).trans hk)
  rw [el, er]

/-! ## The first stored value at an index -/

/-- At (p, q) the first stored value is the exponential of the clamped squared distance times −1/2. -/
theorem pay1_apply (v0 : Vec Ideal S2048x1024 .bf16) (v2 : Vec Ideal S1024x1024 .bf16) (v5 : Vec Ideal S2048x1 .f32)
    (v7 : Vec Ideal S1x1024 .f32) (p : Fin 2048) (q : Fin 1024) :
    Gen.k0_pay1 (F := Ideal) v0 v2 v5 v7 (ix2 p q)
      = Ideal.exp (max ((v5 (ix2 p (0 : Fin 1)) + v7 (ix2 (0 : Fin 1) q))
          - Ideal.ofBits .f32 0x40000000#32 * ∑ k : Fin 1024, v0 (ix2 p k) * v2 (ix2 q k))
          (Ideal.ofBits .f32 0x00000000#32) * Ideal.ofBits .f32 0xBF000000#32) := by
  unfold Gen.k0_pay1
  simp only [shapeCast_self]
  show Ideal.exp (max ((broadcastTo S2048x1024 v5 broadcasts_S2048x1_S2048x1024 (ix2 p q)
        + broadcastTo S2048x1024 v7 broadcasts_S1x1024_S2048x1024 (ix2 p q))
      - Ideal.ofBits .f32 0x40000000#32
        * matmul tileDot none v0 v2 (constant (F := Ideal) S2048x1024 .f32 0x00000000#32) (ix2 p q))
      (Ideal.ofBits .f32 0x00000000#32) * Ideal.ofBits .f32 0xBF000000#32) = _
  rw [matmul_tile_apply, Cert.Lib.ColumnLayout.broadcastTo_a1_ab_apply v5 _ p q (0 : Fin 1),
    broadcastTo_1b_ab_apply v7 _ p q]

/-! ## The two store conditions -/

/-- The bit "the tile's rows meet the tile's columns", over the two grid coordinates as naturals: the tile's first
    row is before the end of its columns and the end of its rows is after its first column. -/
def meetBit (a b : Nat) : BitVec 1 :=
  Scalar.andi
    (Scalar.cmpi .slt (Scalar.muli (BitVec.ofNat 32 a) 2048#32) (Scalar.addi (Scalar.muli (BitVec.ofNat 32 b) 1024#32) 1024#32))
    (Scalar.cmpi .sgt (Scalar.addi (Scalar.muli (BitVec.ofNat 32 a) 2048#32) 2048#32) (Scalar.muli (BitVec.ofNat 32 b) 1024#32))

/-- The first condition tests that bit … -/
theorem cond1_eq (i : grid0.Coords) :
    k0_cond1 i = Scalar.cmpi .ne (Scalar.extui (meetBit (i 0).val (i 1).val)) 0#32 := rfl

/-- … and the second its complement. -/
theorem cond2_eq (i : grid0.Coords) :
    k0_cond2 i = Scalar.cmpi .ne (Scalar.extui (Scalar.xori (meetBit (i 0).val (i 1).val) 1#1)) 0#32 := rfl

/-- The second condition holds exactly where the first does not. -/
theorem cond2_iff_not_cond1 (i : grid0.Coords) : k0_cond2 i = 1#1 ↔ ¬ k0_cond1 i = 1#1 := by
  rw [cond1_eq, cond2_eq]
  rcases BitVec.eq_zero_or_eq_one (meetBit (i 0).val (i 1).val) with h | h <;> rw [h] <;> decide

/-- Where the first condition fails the tile has no position on the diagonal: its rows end before its columns begin,
    or begin after they end. -/
theorem no_diag_of_not_cond1 (i : grid0.Coords) (h : ¬ k0_cond1 i = 1#1) (p : Fin 2048) (q : Fin 1024) :
    (i 0).val * 2048 + p.val ≠ (i 1).val * 1024 + q.val := by
  have h0 : (i 0).val < 2 := (i 0).isLt
  have h1 : (i 1).val < 4 := (i 1).isLt
  have hp := p.isLt
  have hq := q.isLt
  rw [cond1_eq] at h
  generalize (i 0).val = a at h h0 ⊢
  generalize (i 1).val = b at h h1 ⊢
  interval_cases a <;> interval_cases b <;> first | omega | exact absurd (by decide) h

/-! ## The second stored value at an index -/

/-- The word of the global row, tile row offset plus p, equals the word of the global column exactly when the numbers
    are equal: both are below 4096, far from wrapping. -/
theorem diagWord_eq_iff (a b p q : Nat) (ha : a < 2) (hb : b < 4) (hp : p < 2048) (hq : q < 1024) :
    IntOp.cmpi .eq (IntOp.addi (Scalar.muli (BitVec.ofNat 32 a) 2048#32) (BitVec.ofNat 32 p))
        (IntOp.addi (Scalar.muli (BitVec.ofNat 32 b) 1024#32) (BitVec.ofNat 32 q)) = 1#1
      ↔ a * 2048 + p = b * 1024 + q := by
  have key : (BitVec.ofNat 32 a * 2048#32 + BitVec.ofNat 32 p = BitVec.ofNat 32 b * 1024#32 + BitVec.ofNat 32 q)
      ↔ a * 2048 + p = b * 1024 + q := by
    rw [← BitVec.toNat_inj]
    simp only [BitVec.toNat_add, BitVec.toNat_mul, BitVec.toNat_ofNat]
    omega
  show BitVec.ofBool (BitVec.ofNat 32 a * 2048#32 + BitVec.ofNat 32 p == BitVec.ofNat 32 b * 1024#32 + BitVec.ofNat 32 q) = 1#1 ↔ _
  rw [← key]
  by_cases hxy : BitVec.ofNat 32 a * 2048#32 + BitVec.ofNat 32 p = BitVec.ofNat 32 b * 1024#32 + BitVec.ofNat 32 q
  · rw [hxy, beq_self_eq_true]
    exact ⟨fun _ => rfl, fun _ => rfl⟩
  · rw [beq_eq_false_iff_ne.mpr hxy]
    exact ⟨fun h => absurd h (by decide), fun h => absurd h hxy⟩

/-- At (p, q) the second stored value is the word of 1 where the global row equals the global column, and the first
    stored value elsewhere. -/
theorem pay2_apply (i : grid0.Coords) (v0 : Vec Ideal S2048x1024 .bf16) (v2 : Vec Ideal S1024x1024 .bf16)
    (v5 : Vec Ideal S2048x1 .f32) (v7 : Vec Ideal S1x1024 .f32) (p : Fin 2048) (q : Fin 1024) :
    Gen.k0_pay2 (F := Ideal) i v0 v2 v5 v7 (ix2 p q)
      = if (i 0).val * 2048 + p.val = (i 1).val * 1024 + q.val then Ideal.ofBits .f32 0x3F800000#32
        else Gen.k0_pay1 (F := Ideal) v0 v2 v5 v7 (ix2 p q) := by
  unfold Gen.k0_pay2
  show Scalar.select (IntOp.cmpi .eq
        (IntOp.addi (Scalar.muli (BitVec.ofNat 32 (i 0).val) 2048#32) (iota .tc S2048x1024 32 [0] iota_S2048x1024_d0_w32 (ix2 p q)))
        (IntOp.addi (Scalar.muli (BitVec.ofNat 32 (i 1).val) 1024#32) (iota .tc S2048x1024 32 [1] iota_S2048x1024_d1_w32 (ix2 p q))))
      (Ideal.ofBits .f32 0x3F800000#32) (Gen.k0_pay1 (F := Ideal) v0 v2 v5 v7 (ix2 p q)) = _
  rw [iota_single_apply, iota_single_apply]
  exact if_congr (diagWord_eq_iff (i 0).val (i 1).val p.val q.val (i 0).isLt (i 1).isLt p.isLt q.isLt) rfl rfl

end Cert.KernelValue

end
-- ==== Proof.KernelEntry.lean ====
/-
  From the stored values to the entries of the Gaussian kernel matrix.

  Before the kernel runs, three operations prepare its inputs from the point matrix: the points rounded to the
  narrower format (the identity on extended reals), the column of squared row norms (the sum of squares along each row,
  started at the zero word, placed as a 4096 by 1 column) and the same numbers as a 1 by 4096 row.  Read at an index,
  the column at (r, 0) and the row at (0, c) are the squared norms of rows r and c.  With a tile's inputs identified as
  rows of the point matrix and as these squared norms, each stored value of the tile at (p, q) is the kernel matrix's
  entry at the global row and column of that position: off the diagonal the exponential of minus half the clamped
  squared distance, on the diagonal the word of 1.
-/
import proofs.«106069_j67370857005321_2_alg».proof.Proof.KernelPayload

noncomputable section

namespace Cert.KernelValue

open Idealize.ShloMosaic Idealize.ShloMosaic.ValueIdx
open Cert.KernelIdeal Cert.KernelIdeal.Facts₀
open scoped BigOperators

variable [Cert.KernelIdeal.Facts]

/-! ## The three operations before the kernel, read at an index -/

/-- The points rounded to the narrower format are the points. -/
theorem rounded_apply (x0 : FVec Ideal S4096x1024 .f32) (i : S4096x1024.Idx) :
    (truncf .bf16 x0 bitsLt_bf16_f32 : FVec Ideal S4096x1024 .bf16) i = x0 i := rfl

/-- The sum along each row of a 4096 by 1024 array, started at the zero word, at row r. -/
theorem rowSum_apply (y : FVec Ideal S4096x1024 .f32) (r : Fin 4096) :
    Host.reduceAdd (F := Ideal) y (constant (F := Ideal) S_ .f32 0x00000000#32) reducesTo_S4096x1024_S4096_d1 h_S_ (ix1 r)
      = Ideal.ofBits .f32 0x00000000#32 + ∑ k : Fin 1024, y (ix2 r k) := by
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y (funext fun a => Fin.ext (by match a with | ⟨0, _⟩ => rfl | ⟨1, _⟩ => rfl))

/-- The column of squared row norms: the row sums of the squares, placed as a 4096 by 1 column. -/
def sqColTerm (x0 : FVec Ideal S4096x1024 .f32) : FVec Ideal S4096x1 .f32 :=
  broadcastInDim S4096x1 ![0] bcast_S4096_S4096x1_0
    (Host.reduceAdd (F := Ideal) (mulf x0 x0) (constant (F := Ideal) S_ .f32 0x00000000#32) reducesTo_S4096x1024_S4096_d1 h_S_)

/-- The column at (r, 0) is the squared norm of row r. -/
theorem sqCol_apply (x0 : FVec Ideal S4096x1024 .f32) (r : Fin 4096) :
    sqColTerm x0 (ix2 r (0 : Fin 1)) = Cert.GaussSpec.rowSq x0 r := by
  unfold sqColTerm
  refine (broadcastInDim_apply _ bcast_S4096_S4096x1_0 _ (ix2 r (0 : Fin 1)) (ix1 r) (fun a => match a with
    | ⟨0, _⟩ => by show r.val = if (4096 : Nat) = 1 then 0 else r.val; rw [if_neg (by decide)])).trans ?_
  exact rowSum_apply (mulf x0 x0) r

/-- The column viewed as a 1 by 4096 row, at (0, c), is the squared norm of row c. -/
theorem sqRow_apply (x0 : FVec Ideal S4096x1024 .f32) (c : Fin 4096) :
    (shapeCast S1x4096 (sqColTerm x0) shapeCasts_S4096x1_S1x4096) (ix2 (0 : Fin 1) c) = Cert.GaussSpec.rowSq x0 c := by
  refine (shapeCast_apply (sqColTerm x0) shapeCasts_S4096x1_S1x4096 (ix2 (0 : Fin 1) c) (ix2 c (0 : Fin 1)) (by
    rw [Shape.rowMajor_val_two, Shape.rowMajor_val_two]
    show c.val * 1 + 0 = 0 * 4096 + c.val
    omega)).trans ?_
  exact sqCol_apply x0 c

/-! ## The stored values are the kernel matrix's entries -/

/-- Off the diagonal, the first stored value at (p, q) is the kernel entry at the global row r and column c, once the
    tile's inputs are rows r and c of the points and their squared norms. -/
theorem entry_of_pay1 (X : Cert.GaussSpec.SX.Idx → EReal) (r c : Fin 4096) (hne : r ≠ c)
    (v0 : Vec Ideal S2048x1024 .bf16) (v2 : Vec Ideal S1024x1024 .bf16) (v5 : Vec Ideal S2048x1 .f32)
    (v7 : Vec Ideal S1x1024 .f32) (p : Fin 2048) (q : Fin 1024)
    (h0 : ∀ k : Fin 1024, v0 (ix2 p k) = X (ix2 r k)) (h2 : ∀ k : Fin 1024, v2 (ix2 q k) = X (ix2 c k))
    (h5 : v5 (ix2 p (0 : Fin 1)) = Cert.GaussSpec.rowSq X r) (h7 : v7 (ix2 (0 : Fin 1) q) = Cert.GaussSpec.rowSq X c) :
    Gen.k0_pay1 (F := Ideal) v0 v2 v5 v7 (ix2 p q) = Cert.GaussSpec.kerEntry X r c := by
  rw [pay1_apply, h5, h7, Finset.sum_congr rfl (fun k _ => by rw [h0 k, h2 k])]
  unfold Cert.GaussSpec.kerEntry
  rw [if_neg hne]
  rfl

/-- The second stored value at (p, q) is the kernel entry at the global row r and column c of that position, on the
    diagonal and off it. -/
theorem entry_of_pay2 (X : Cert.GaussSpec.SX.Idx → EReal) (i : grid0.Coords) (r c : Fin 4096)
    (v0 : Vec Ideal S2048x1024 .bf16) (v2 : Vec Ideal S1024x1024 .bf16) (v5 : Vec Ideal S2048x1 .f32)
    (v7 : Vec Ideal S1x1024 .f32) (p : Fin 2048) (q : Fin 1024)
    (hr : r.val = (i 0).val * 2048 + p.val) (hc : c.val = (i 1).val * 1024 + q.val)
    (h0 : ∀ k : Fin 1024, v0 (ix2 p k) = X (ix2 r k)) (h2 : ∀ k : Fin 1024, v2 (ix2 q k) = X (ix2 c k))
    (h5 : v5 (ix2 p (0 : Fin 1)) = Cert.GaussSpec.rowSq X r) (h7 : v7 (ix2 (0 : Fin 1) q) = Cert.GaussSpec.rowSq X c) :
    Gen.k0_pay2 (F := Ideal) i v0 v2 v5 v7 (ix2 p q) = Cert.GaussSpec.kerEntry X r c := by
  rw [pay2_apply]
  by_cases hrc : r = c
  · have hd : (i 0).val * 2048 + p.val = (i 1).val * 1024 + q.val := by rw [← hr, ← hc, hrc]
    rw [if_pos hd]
    unfold Cert.GaussSpec.kerEntry
    rw [if_pos hrc]
  · have hd : ¬ (i 0).val * 2048 + p.val = (i 1).val * 1024 + q.val := by
      rw [← hr, ← hc]; exact fun h => hrc (Fin.ext h)
    rw [if_neg hd]
    exact entry_of_pay1 X r c hrc v0 v2 v5 v7 p q h0 h2 h5 h7

end Cert.KernelValue

end
-- ==== Proof.KI.BlockReads.lean ====
/-
  The tile's inputs at a grid point, read at an index.

  When the tiled region is entered the three arrays its input windows stage are known functions of the points X: the
  points rounded to the narrower format (the identity on extended reals), the column of squared row norms, and that
  column viewed as a row.  The windows' block indices are decided once over the eight grid points: the row tile and the
  norm column follow the output tile's row index, the column tile and the norm row its column index.  Hence, at the
  grid point whose output tile starts at row 2048·i and column 1024·j, row p of the row tile is row 2048·i + p of X,
  row q of the column tile is row 1024·j + q of X, and the norm pieces at p and at q are the squared norms of those rows.
-/
import proofs.«106069_j67370857005321_2_alg».proof.Proof.KI.Entry
import proofs.«106069_j67370857005321_2_alg».proof.Proof.KernelEntry
import Idealize.ShloMosaic.Lib.Pipeline.Value
import Idealize.ShloMosaic.Lib.StableHlo.Run

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelValue Idealize.ShloMosaic.ValueIdx

local notation "𝕄" => MT nD τ sig Unit (Elt Ideal) ℕ (UR sig nD τ) ℕ

variable (m : (ℓ : Loc nD τ sig) → Buf (Elt Ideal) ℓ)

/-! ## The arrays the region finds, as terms of the points -/

/-- The points as launched, on core c. -/
abbrev pts (c : Dev nD) : S4096x1024.Idx → EReal := m ((c : Thread nD τ).loc main_arg0)

/-- The array both point windows read is the points rounded to the narrower format. -/
theorem V_rounded (c : Dev nD) :
    @Eq (S4096x1024.Idx → EReal) (V m c main_v0) (truncf (F := Ideal) .bf16 (pts m c) bitsLt_bf16_f32) := by
  dsimp only [V, hostOps0]; after_results

/-- The array the column window reads is the column of squared row norms. -/
theorem V_sqCol (c : Dev nD) : @Eq (S4096x1.Idx → EReal) (V m c main_v3) (sqColTerm (pts m c)) := by
  dsimp only [V, hostOps0]; after_results; rfl

/-- The array the row window reads is that column viewed as a row. -/
theorem V_sqRow (c : Dev nD) :
    @Eq (S1x4096.Idx → EReal) (V m c main_v4) (shapeCast S1x4096 (sqColTerm (pts m c)) shapeCasts_S4096x1_S1x4096) := by
  dsimp only [V, hostOps0]; after_results; rfl

/-! ## The index maps over the grid -/

/-- The windows' block indices at a grid point, against the output tile's: the row tile and the column of norms move
    with the output's row index, the column tile and the row of norms with its column index, every other block index
    is zero, the grid coordinates are the output's block indices, and those stay in range. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ ((grid0.coords t) 0).val = win0_4.index t (0 : Fin 2) ∧ ((grid0.coords t) 1).val = win0_4.index t (1 : Fin 2)
    ∧ win0_4.index t (0 : Fin 2) ≤ 1 ∧ win0_4.index t (1 : Fin 2) ≤ 3 :=
  (by decide +kernel : ∀ t : Fin grid0.N, _)

/-- Every tile of the two by four tiling is some grid point's. -/
theorem index_onto : ∀ (q0 : Fin 2) (q1 : Fin 4), ∃ t : Fin cfg0.N, win0_4.index t = ![q0.val, q1.val] :=
  (by decide +kernel : ∀ (q0 : Fin 2) (q1 : Fin 4), ∃ t : Fin grid0.N, win0_4.index t = ![q0.val, q1.val])

/-! ## The four input blocks at a grid point, read at an index -/

/-- Row p of the row tile is row r of the points, r the global row of p. -/
theorem rowTile_read (c : Dev nD) (t : Fin cfg0.N) (p : Fin 2048) (k : Fin 1024) (r : Fin 4096)
    (hr : r.val = win0_4.index t (0 : Fin 2) * 2048 + p.val) :
    iblk m c 0 t (ix2 p k) = pts m c (ix2 r k) := by
  obtain ⟨e00, e01, -⟩ := index_facts t
  show V m c main_v0 (((cfg0.win 0).blk t).view.emb (ix2 p k)) = _
  refine (congrFun (V_rounded m c) _).trans ?_
  refine (rounded_apply _ _).trans ?_
  refine congrArg (pts m c) (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- Row q of the column tile is row c of the points, c the global column of q. -/
theorem colTile_read (c : Dev nD) (t : Fin cfg0.N) (q : Fin 1024) (k : Fin 1024) (cc : Fin 4096)
    (hc : cc.val = win0_4.index t (1 : Fin 2) * 1024 + q.val) :
    iblk m c 1 t (ix2 q k) = pts m c (ix2 cc k) := by
  obtain ⟨-, -, e10, e11, -⟩ := index_facts t
  show V m c main_v0 (((cfg0.win 1).blk t).view.emb (ix2 q k)) = _
  refine (congrFun (V_rounded m c) _).trans ?_
  refine (rounded_apply _ _).trans ?_
  refine congrArg (pts m c) (funext fun a => Fin.ext ?_)
  match a with
  | ⟨0, _⟩ => show win0_1.index t (0 : Fin 2) * 1024 + 1 * q.val = cc.val; omega
  | ⟨1, _⟩ => show win0_1.index t (1 : Fin 2) * 1024 + 1 * k.val = k.val; omega

/-- The piece of the norm column at p is the squared norm of row r of the points, r the global row of p. -/
theorem sqColTile_read (c : Dev nD) (t : Fin cfg0.N) (p : Fin 2048) (r : Fin 4096)
    (hr : r.val = win0_4.index t (0 : Fin 2) * 2048 + p.val) :
    iblk m c 2 t (ix2 p (0 : Fin 1)) = Cert.GaussSpec.rowSq (pts m c) r := by
  obtain ⟨-, -, -, -, e20, e21, -⟩ := index_facts t
  show V m c main_v3 (((cfg0.win 2).blk t).view.emb (ix2 p (0 : Fin 1))) = _
  refine (congrFun (V_sqCol m c) _).trans ?_
  refine (congrArg (sqColTerm (pts m c)) (funext fun a => Fin.ext ?_)).trans (sqCol_apply (pts m c) r)
  match a with
  | ⟨0, _⟩ => show win0_2.index t (0 : Fin 2) * 2048 + 1 * p.val = r.val; omega
  | ⟨1, _⟩ => show win0_2.index t (1 : Fin 2) * 1 + 1 * 0 = 0; omega

/-- The piece of the norm row at q is the squared norm of row c of the points, c the global column of q. -/
theorem sqRowTile_read (c : Dev nD) (t : Fin cfg0.N) (q : Fin 1024) (cc : Fin 4096)
    (hc : cc.val = win0_4.index t (1 : Fin 2) * 1024 + q.val) :
    iblk m c 3 t (ix2 (0 : Fin 1) q) = Cert.GaussSpec.rowSq (pts m c) cc := by
  obtain ⟨-, -, -, -, -, -, e30, e31, -⟩ := index_facts t
  show V m c main_v4 (((cfg0.win 3).blk t).view.emb (ix2 (0 : Fin 1) q)) = _
  refine (congrFun (V_sqRow m c) _).trans ?_
  refine (congrArg (shapeCast S1x4096 (sqColTerm (pts m c)) shapeCasts_S4096x1_S1x4096) (funext fun a => Fin.ext ?_)).trans
    (sqRow_apply (pts m c) cc)
  match a with
  | ⟨0, _⟩ => show win0_3.index t (0 : Fin 2) * 1 + 1 * 0 = 0; omega
  | ⟨1, _⟩ => show win0_3.index t (1 : Fin 2) * 1024 + 1 * q.val = cc.val; omega

end Cert.KernelIdeal.Tile

end
-- ==== Proof.KI.Cover.lean ====
/-
  The eight output tiles cover the result array. The tile at a grid point is the rectangle of 2048 rows by 1024 columns
  at the point's block index; the block indices of the eight points are all of the two by four, so the entry `(r, c)`
  lies in the tile of the point whose block index is `(r / 2048, c / 1024)`; and every point writes its tile back.
-/
import proofs.«106069_j67370857005321_2_alg».proof.Proof.KI.Tiles
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Every block index of the two by four tiling is some grid point's. -/
theorem idx_onto : ∀ (q0 : Fin 2) (q1 : Fin 4), ∃ t : Fin cfg0.N, win0_4.index t = ![q0.val, q1.val] :=
  (by decide +kernel : ∀ (q0 : Fin 2) (q1 : Fin 4), ∃ t : Fin grid0.N, win0_4.index t = ![q0.val, q1.val])

/-- An entry of the result array is in the tile of point `t` iff each coordinate is in the tile's range on its axis. -/
theorem mem_tile (t : Fin cfg0.N) (i : S4096x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v5).slice (win0_4.rect t)).set ↔ _
  rw [View.set_slice_whole, Rect.mem_set_unit]
  exact Iff.rfl

/-- Every entry of the result array is in the tile of some grid point, and that point writes its tile back. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 2048, by omega⟩ ⟨(i 1).val / 1024, by omega⟩
  have q0 : win0_4.index t (0 : Fin 2) = (i 0).val / 2048 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

end Cert.KernelIdeal.Tile

end
-- ==== Proof.KI.Value.lean ====
/-
  The kernel matrix after the run of the tiled region.

  Each of the eight grid points writes back one tile of 2048 rows by 1024 columns.  At the tile position (p, q) of the
  point whose tile starts at row 2048·i and column 1024·j the body left the kernel entry of the points at the global row
  2048·i + p and column 1024·j + q: on a tile that meets the diagonal by the stored value with ones on the diagonal, on a
  tile that misses it by the stored value as computed, no position of such a tile being on the diagonal.  The tiles cover
  the 4096 by 4096 array, so after the last write-back the array is the kernel matrix of the points as launched.
-/
import proofs.«106069_j67370857005321_2_alg».proof.Proof.KI.TileValue
import proofs.«106069_j67370857005321_2_alg».proof.Proof.KI.BlockReads
import proofs.«106069_j67370857005321_2_alg».proof.Proof.KI.Cover
import proofs.«106069_j67370857005321_2_alg».proof.Proof.KernelEntry
import Idealize.ShloMosaic.Lib.Pipeline.Value
import Idealize.ShloMosaic.Lib.StableHlo.Run

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelValue Idealize.ShloMosaic.ValueIdx

local notation "𝕄" => MT nD τ sig Unit (Elt Ideal) ℕ (UR sig nD τ) ℕ

variable (m : (ℓ : Loc nD τ sig) → Buf (Elt Ideal) ℓ)

/-! ## What a grid point writes back -/

/-- The tile a grid point writes back is the tile of the kernel matrix of the points at the point's rows and columns:
    at the tile position (p, q) the stored value is the kernel entry at the global row and column of that position,
    by the case the point is in. -/
theorem flushed_eq (c : Dev nD) (t : Fin cfg0.N) :
    (dats m 0 c).flushed 4 t = ((cfg0.win 4).blk t).view.read (Elt Ideal) (Cert.GaussSpec.kerOut (pts m c)) := by
  show (cfg0.win 4).cut (grid0.coords t) ((dats m 0 c).after 4 t) = _
  rw [after4]
  obtain ⟨-, -, -, -, -, -, -, -, e8, e9, b0, b1⟩ := index_facts t
  funext j
  obtain ⟨p, q, rfl⟩ : ∃ (p : Fin 2048) (q : Fin 1024), j = ix2 p q := ⟨j 0, j 1, eq_ix2 j⟩
  have hp := p.isLt
  have hq := q.isLt
  have hemb : ((cfg0.win 4).blk t).view.emb (ix2 p q)
      = ix2 (⟨win0_4.index t (0 : Fin 2) * 2048 + p.val, by omega⟩ : Fin 4096)
          (⟨win0_4.index t (1 : Fin 2) * 1024 + q.val, by omega⟩ : Fin 4096) :=
    funext fun a => Fin.ext (by
      match a with
      | ⟨0, _⟩ => show win0_4.index t (0 : Fin 2) * 2048 + 1 * p.val = win0_4.index t (0 : Fin 2) * 2048 + p.val; omega
      | ⟨1, _⟩ => show win0_4.index t (1 : Fin 2) * 1024 + 1 * q.val = win0_4.index t (1 : Fin 2) * 1024 + q.val; omega)
  show outAt m c t (ix2 p q) = Cert.GaussSpec.kerOut (pts m c) (((cfg0.win 4).blk t).view.emb (ix2 p q))
  refine Eq.trans ?_ (congrArg (Cert.GaussSpec.kerOut (pts m c)) hemb).symm
  show _ = Cert.GaussSpec.kerEntry (pts m c) ⟨win0_4.index t (0 : Fin 2) * 2048 + p.val, by omega⟩
    ⟨win0_4.index t (1 : Fin 2) * 1024 + q.val, by omega⟩
  by_cases h : k0_cond1 (grid0.coords t) = 1#1
  · rw [outAt_on m c t h, outOn_eq]
    exact entry_of_pay2 (pts m c) (grid0.coords t) _ _ _ _ _ _ p q
      (show win0_4.index t (0 : Fin 2) * 2048 + p.val = ((grid0.coords t) 0).val * 2048 + p.val by rw [e8])
      (show win0_4.index t (1 : Fin 2) * 1024 + q.val = ((grid0.coords t) 1).val * 1024 + q.val by rw [e9])
      (fun k => rowTile_read m c t p k _ rfl) (fun k => colTile_read m c t q k _ rfl)
      (sqColTile_read m c t p _ rfl) (sqRowTile_read m c t q _ rfl)
  · rw [outAt_off m c t h, outOff_eq]
    refine entry_of_pay1 (pts m c) _ _ ?_ _ _ _ _ p q
      (fun k => rowTile_read m c t p k _ rfl) (fun k => colTile_read m c t q k _ rfl)
      (sqColTile_read m c t p _ rfl) (sqRowTile_read m c t q _ rfl)
    intro hrc
    have hv := congrArg Fin.val hrc
    refine no_diag_of_not_cond1 (grid0.coords t) h p q ?_
    rw [e8, e9]
    exact hv

/-! ## The array after the run -/

/-- The output array after all eight write-backs is the kernel matrix of the points as launched. -/
theorem final (m : (ℓ : Loc nD τ sig) → Buf (Elt Ideal) ℓ) (c : Dev nD) :
    (dats m 0 c).arrAt 4 cfg0.N = Cert.GaussSpec.kerOut (m ((c : Thread nD τ).loc main_arg0)) :=
  (dats m 0 c).arrAt_eq_of_cover 4 (Cert.GaussSpec.kerOut (pts m c)) (fun t _ => flushed_eq m c t) cover

end Cert.KernelIdeal.Tile

end
-- ==== Proof.RefValue.lean ====
/-
  The reference's result, entry by entry, is the second form of the Gaussian kernel matrix.

  Reading the reference one operation at a time at the entry `(r, c)`: the row sums of squares, broadcast along the
  rows and along the columns, give `s_r + s_c`; the product of the points with their transpose gives the Gram entry
  `g_{r,c}`; then `(s_r + s_c) - 2 · g_{r,c}`, the maximum with zero, the negation, the division by two and the
  exponential. What is left to show is that the indices each operation reads are the coordinates `(r, k)` and `(c, k)`.
-/
import proofs.«106069_j67370857005321_2_alg».proof.Proof.Gen.ReferenceIdeal.Read
import proofs.«106069_j67370857005321_2_alg».proof.Proof.GaussSpec

noncomputable section

namespace Cert.RefValue

open Cert.ReferenceIdeal Cert.ReferenceIdeal.Read Cert.GaussSpec Idealize.ShloMosaic Idealize.ShloMosaic.ValueIdx
open scoped BigOperators

/-! ### The indices the operations read -/

/-- The row sum broadcast along the rows reads, at entry `(r, c)`, the coordinates `(r, k)`. -/
theorem idx_row (r c : Fin 4096) (k : Fin 1024) :
    idx_main_v1 (idx_main_v4 (idx_main_v6 (ix2 r c))) k = ix2 r k :=
  funext fun a => Fin.ext (by match a with | ⟨0, _⟩ => rfl | ⟨1, _⟩ => rfl)

/-- The row sum broadcast along the columns reads, at entry `(r, c)`, the coordinates `(c, k)`. -/
theorem idx_col (r c : Fin 4096) (k : Fin 1024) :
    idx_main_v1 (idx_main_v5 (idx_main_v7 (ix2 r c))) k = ix2 c k :=
  funext fun a => Fin.ext (by match a with | ⟨0, _⟩ => rfl | ⟨1, _⟩ => rfl)

/-- The product's left factor at entry `(r, c)` and contraction index `k` is the coordinate `(r, k)`. -/
theorem idx_lhs (r c : Fin 4096) (k : Fin 1024) : lidx_main_v3 (ix2 r c) k = ix2 r k :=
  funext fun a => Fin.ext (by match a with | ⟨0, _⟩ => rfl | ⟨1, _⟩ => rfl)

/-- The product's right factor, read through the transpose, is the coordinate `(c, k)`. -/
theorem idx_rhs (r c : Fin 4096) (k : Fin 1024) : idx_main_v2 (ridx_main_v3 (ix2 r c) k) = ix2 c k :=
  funext fun a => Fin.ext (by match a with | ⟨0, _⟩ => rfl | ⟨1, _⟩ => rfl)

/-! ### The reference at an entry -/

/-- The reference's result at entry `(r, c)` is the entry that negates the distance and divides it by two. -/
theorem ref_entry (x0 : (⟨S4096x1024, .f32⟩ : BufTy).Contents (Elt Ideal)) (r c : Fin 4096) :
    val_main_v17 (F := Ideal) x0 (ix2 r c) = refEntry x0 r c := by
  simp only [val_main_v17_apply, val_main_v16_apply, val_main_v15_apply, val_main_cst_2_apply, val_main_v14_apply,
    val_main_v13_apply, val_main_v12_apply, val_main_cst_1_apply, val_main_v11_apply, val_main_v10_apply,
    val_main_v9_apply, val_main_cst_0_apply, val_main_v8_apply, val_main_v7_apply, val_main_v6_apply,
    val_main_v5_apply, val_main_v4_apply, val_main_v3_apply, val_main_v2_apply, val_main_v1_apply,
    val_main_v0_apply, val_main_cst_apply, idx_row, idx_col, idx_lhs, idx_rhs,
    Ideal.hostUnary_exp_def, Ideal.hostDivf_def, Ideal.hostNegf_def, Ideal.negf_def, Ideal.maximumf_def,
    Ideal.subf_def, Ideal.addf_def, Ideal.mulf_def, Ideal.ofBits_def]
  rfl

/-- The reference's result is the second form of the kernel matrix. -/
theorem ref_eq_refOut (x0 : (⟨S4096x1024, .f32⟩ : BufTy).Contents (Elt Ideal)) :
    val_main_v17 (F := Ideal) x0 = refOut x0 := by
  funext i
  rw [eq_ix2 i]
  exact ref_entry x0 (i 0) (i 1)

end Cert.RefValue

end
-- ==== Proof.GaussAlgebra.lean ====
/-
  The two forms of the Gaussian kernel entry agree at every entry when the points are finite.

  With real coordinates the squared norms `s_r`, the Gram entries `g_{r,c}` and the clamped distances `d_{r,c}` are
  themselves reals, the four binary words are the reals `0`, `2`, `-1/2` and `1`, and the division by the real `2`
  is the product with `1/2`. Off the diagonal both forms are then `exp` of the same real, `(-d) · (1/2) = d · (-1/2)`.
  On the diagonal the Gram entry `g_{r,r}` is the squared norm `s_r`, so `(s_r + s_r) - 2 · s_r = 0`, the clamp gives
  `0`, and `exp 0 = 1`. Finiteness is needed exactly for that cancellation: an infinite `s_r` does not cancel.
-/
import proofs.«106069_j67370857005321_2_alg».proof.Proof.GaussSpec

noncomputable section

namespace Cert.GaussSpec

open Idealize.ShloMosaic Idealize.ShloMosaic.ValueIdx
open scoped BigOperators

/-! ### The four binary words as reals -/

/-- The word `0x00000000` is the real `0`. -/
theorem word_zero : Ideal.ofBits .f32 0x00000000#32 = ((0 : ℝ) : EReal) := by
  simp [Ideal.ofBits, Ideal.ieee]

/-- The word `0x40000000` is the real `2`. -/
theorem word_two : Ideal.ofBits .f32 0x40000000#32 = ((2 : ℝ) : EReal) := by
  simp [Ideal.ofBits, Ideal.ieee, -EReal.coe_mul]; norm_num

/-- The word `0xBF000000` is the real `-1/2`. -/
theorem word_neg_half : Ideal.ofBits .f32 0xBF000000#32 = ((-(1 / 2) : ℝ) : EReal) := by
  simp [Ideal.ofBits, Ideal.ieee, -EReal.coe_mul]; norm_num

/-- The word `0x3F800000` is the real `1`. -/
theorem word_one : Ideal.ofBits .f32 0x3F800000#32 = ((1 : ℝ) : EReal) := by
  simp [Ideal.ofBits, Ideal.ieee, -EReal.coe_mul]; norm_num

/-! ### Finite sums of reals under the coercion -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-! ### The real squared norm, Gram entry and distance -/

/-- The squared norm of row `r` of a real point matrix. -/
def rowSqR (f : SX.Idx → ℝ) (r : Fin 4096) : ℝ := ∑ k : Fin 1024, f (ix2 r k) * f (ix2 r k)

/-- The Gram entry of rows `r` and `c` of a real point matrix. -/
def gramR (f : SX.Idx → ℝ) (r c : Fin 4096) : ℝ := ∑ k : Fin 1024, f (ix2 r k) * f (ix2 c k)

/-- The clamped squared distance of rows `r` and `c` of a real point matrix. -/
def distR (f : SX.Idx → ℝ) (r c : Fin 4096) : ℝ := max ((rowSqR f r + rowSqR f c) - 2 * gramR f r c) 0

/-- The Gram entry on the diagonal is the squared norm. -/
theorem gramR_self (f : SX.Idx → ℝ) (r : Fin 4096) : gramR f r r = rowSqR f r := rfl

/-- On the diagonal the clamped distance is zero. -/
theorem distR_self (f : SX.Idx → ℝ) (r : Fin 4096) : distR f r r = 0 := by
  unfold distR
  rw [gramR_self]
  have h : rowSqR f r + rowSqR f r - 2 * rowSqR f r = 0 := by ring
  rw [h, max_self]

/-- The squared norm of a coerced real matrix is the coercion of the real squared norm. -/
theorem rowSq_coe (f : SX.Idx → ℝ) (r : Fin 4096) :
    rowSq (fun i => (f i : EReal)) r = ((rowSqR f r : ℝ) : EReal) := by
  unfold rowSq rowSqR
  rw [word_zero, coe_finset_sum, EReal.coe_zero, zero_add]
  exact Finset.sum_congr rfl fun k _ => (EReal.coe_mul _ _).symm

/-- The Gram entry of a coerced real matrix is the coercion of the real Gram entry. -/
theorem gram_coe (f : SX.Idx → ℝ) (r c : Fin 4096) :
    gram (fun i => (f i : EReal)) r c = ((gramR f r c : ℝ) : EReal) := by
  unfold gram gramR
  rw [coe_finset_sum]
  exact Finset.sum_congr rfl fun k _ => (EReal.coe_mul _ _).symm

/-- The clamped distance of a coerced real matrix is the coercion of the real clamped distance. -/
theorem dist_coe (f : SX.Idx → ℝ) (r c : Fin 4096) :
    dist (fun i => (f i : EReal)) r c = ((distR f r c : ℝ) : EReal) := by
  unfold dist distR
  rw [rowSq_coe, rowSq_coe, gram_coe, word_two, word_zero, ← EReal.coe_add, ← EReal.coe_mul, ← EReal.coe_sub,
    ← coe_max]

/-! ### The two entries over the reals -/

/-- The entry that negates and divides by two, as `exp` of a real. -/
theorem refEntry_coe (f : SX.Idx → ℝ) (r c : Fin 4096) :
    refEntry (fun i => (f i : EReal)) r c = ((Real.exp (-(distR f r c) * (1 / 2)) : ℝ) : EReal) := by
  unfold refEntry
  rw [dist_coe, word_two, Ideal.div_coe (by norm_num : (2 : ℝ) ≠ 0), ← EReal.coe_neg, ← EReal.coe_mul, Ideal.exp_coe]

/-- The entry that multiplies by `-1/2`, off the diagonal, as `exp` of a real. -/
theorem kerEntry_coe_of_ne (f : SX.Idx → ℝ) {r c : Fin 4096} (h : r ≠ c) :
    kerEntry (fun i => (f i : EReal)) r c = ((Real.exp (distR f r c * (-(1 / 2))) : ℝ) : EReal) := by
  unfold kerEntry
  rw [if_neg h, dist_coe, word_neg_half, ← EReal.coe_mul, Ideal.exp_coe]

/-- The entry that sets the diagonal to one, on the diagonal. -/
theorem kerEntry_self (X : SX.Idx → EReal) (r : Fin 4096) : kerEntry X r r = ((1 : ℝ) : EReal) := by
  unfold kerEntry
  rw [if_pos rfl, word_one]

/-- The two forms agree at every entry of a coerced real matrix. -/
theorem refEntry_eq_kerEntry_coe (f : SX.Idx → ℝ) (r c : Fin 4096) :
    refEntry (fun i => (f i : EReal)) r c = kerEntry (fun i => (f i : EReal)) r c := by
  by_cases h : r = c
  · subst h
    rw [refEntry_coe, kerEntry_self, distR_self]
    norm_num
  · rw [refEntry_coe, kerEntry_coe_of_ne f h]
    congr 2
    ring

/-! ### The two forms on finite points -/

/-- On finite points the two forms of the kernel entry agree. -/
theorem refEntry_eq_kerEntry (X : SX.Idx → EReal) (hfin : ∀ i, ∃ x : ℝ, X i = (x : EReal)) (r c : Fin 4096) :
    refEntry X r c = kerEntry X r c := by
  choose f hf using hfin
  have hX : X = fun i => (f i : EReal) := funext hf
  rw [hX]
  exact refEntry_eq_kerEntry_coe f r c

/-- On finite points the two forms of the kernel matrix agree. -/
theorem refOut_eq_kerOut (X : SX.Idx → EReal) (hfin : ∀ i, ∃ x : ℝ, X i = (x : EReal)) : refOut X = kerOut X :=
  funext fun i => refEntry_eq_kerEntry X hfin (i 0) (i 1)

end Cert.GaussSpec

end
-- ==== Proof.FiniteInputs.lean ====
/-
  From the finiteness predicate on the points to real coordinates.

  The predicate is the conjunction, over all entries, of `|x| < +∞`, where `|x| = max x (-x)` and `+∞` is the word
  `0x7F800000`. A conjunction over all entries that is true is true at each entry; and an extended real whose absolute
  value is below `⊤` is neither `⊥` (whose negation is `⊤`) nor `⊤`, so it is a real.
-/
import proofs.«106069_j67370857005321_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic

/-- The rank-zero shape has one index. -/
instance : Subsingleton Cert.Pre_finite_inputs.S_.Idx := ⟨fun _ _ => funext fun d => d.elim0⟩

/-- The word `0x7F800000` is `+∞`. -/
theorem word_inf : Ideal.ofBits .f32 0x7F800000#32 = ⊤ := by
  simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- A comparison `x < y` that came out true is the inequality. -/
theorem lt_of_cmp_olt {x y : EReal} (h : Ideal.cmp .olt x y = 1#1) : x < y := by
  unfold Ideal.cmp at h
  by_contra hn
  simp [hn] at h

/-- If the finiteness predicate holds of the points, every coordinate is a real. -/
theorem real_of_pre [Cert.Pre_finite_inputs.Facts]
    (X : (⟨Cert.Pre_finite_inputs.S4096x1024, .f32⟩ : BufTy).Contents (Elt Ideal))
    (h : Cert.Pre_finite_inputs.fn (F := Ideal) X = fun _ => 1#1) : ∀ i, ∃ x : ℝ, X i = (x : EReal) := by
  intro i
  have h0 := congrFun h ValueIdx.ix0
  dsimp only [Cert.Pre_finite_inputs.fn] at h0
  have hi := Host.reduce_andi_all _ _ _ _ _ h0 i
  have hlt : max (X i) (-(X i)) < ⊤ := by
    have := lt_of_cmp_olt hi
    rwa [show (constant Cert.Pre_finite_inputs.S_ .f32 0x7F800000#32 : FVec Ideal _ _) = fun _ => Ideal.ofBits .f32 0x7F800000#32 from rfl] at this
  exact real_of_abs_lt_top (X i) hlt

end Cert.FiniteInputs

end
-- ==== Proof.lean ====
/-
  The certificate of the tiled Gaussian-kernel program against its array-level reference.

  Both programs compute, for 4096 points in dimension 1024, the matrix of `exp(−d_{r,c}/2)` with
  `d_{r,c} = max ((s_r + s_c) − 2·g_{r,c}) 0`, `s` the squared row norms and `g` the Gram matrix. The tiled program
  computes it tile by tile (2048 rows by 1024 columns, over a grid of two by four), as `exp(d · (−1/2))`, and sets the
  entries on the diagonal to one outright on the tiles that meet it; the reference computes `exp((−d)/2)` everywhere.
  At the extended reals, with every coordinate of the points a real number, the two agree entry by entry: off the
  diagonal a product with `−1/2` is a negation followed by a division by two, and on the diagonal `g_{r,r} = s_r`, so
  `(s_r + s_r) − 2·s_r = 0` — which needs `s_r` real — and `exp 0 = 1`.

  The three frames: the tiled program's run, at the word level and at the extended reals, is the launch of its one
  region over the body's run at every grid point (the two windows that read the rounded points share that array at half
  shares each); the reference's is its run as a straight line of array operations. The tiled program's idealization
  rewrote nothing, so there is nothing to preserve. The value claim: the tiled program's result array is the first form
  of the matrix (the tiles cover it); the reference's is the second form; the two forms agree on finite inputs.
-/
import proofs.«106069_j67370857005321_2_alg».proof.Defs
import proofs.«106069_j67370857005321_2_alg».proof.Proof.Gen.Kernel
import proofs.«106069_j67370857005321_2_alg».proof.Proof.Gen.KernelIdeal
import proofs.«106069_j67370857005321_2_alg».proof.Proof.Gen.ReferenceIdeal
import proofs.«106069_j67370857005321_2_alg».proof.Proof.Gen.Pre_finite_inputs
import proofs.«106069_j67370857005321_2_alg».proof.Proof.K.Launch
import proofs.«106069_j67370857005321_2_alg».proof.Proof.KI.Launch
import proofs.«106069_j67370857005321_2_alg».proof.Proof.KI.Value
import proofs.«106069_j67370857005321_2_alg».proof.Proof.RefValue
import proofs.«106069_j67370857005321_2_alg».proof.Proof.GaussAlgebra
import proofs.«106069_j67370857005321_2_alg».proof.Proof.FiniteInputs

noncomputable section

namespace Cert.Proof

open Idealize.ShloMosaic Idealize.ShloMosaic.TcCoe Idealize.SL.Sem

/-- The word-level program runs to its end without fault and leaves the points as launched. -/
theorem frame_k : Cert.frame_Kernel (hKernel := Cert.Kernel.Gen.facts) (hPre_finite_inputs := Cert.Pre_finite_inputs.Gen.facts) :=
  fun m ρ _ => Cert.Kernel.Tile.frame m ρ

/-- So does the program read at the extended reals. -/
theorem frame_ki : Cert.frame_KernelIdeal (hKernelIdeal := Cert.KernelIdeal.Gen.facts) (hPre_finite_inputs := Cert.Pre_finite_inputs.Gen.facts) :=
  fun m ρ _ => Cert.KernelIdeal.Tile.frame m ρ

/-- The reference is a straight line of array operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the points, all of them finite, both programs end with the kernel matrix in its first
    form: the tiled program because its eight tiles cover the result array and each is that form's block; the reference
    because its last stage is the second form, which is the first on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.GaussSpec.kerOut (m ((c.tc : Thread Cert.KernelIdeal.nD Cert.KernelIdeal.τ).loc Cert.KernelIdeal.main_arg0)), ?_, ?_⟩
  · refine (θ_run Cert.KernelIdeal.defs _ _).mono (fun r h c => ⟨?_, ?_⟩) (Cert.KernelIdeal.Tile.run_main (F := Ideal) m ρ)
    · exact ((h c).1 4).trans (Cert.KernelIdeal.Tile.final m c)
    · exact ((h c).2 Cert.KernelIdeal.main_arg0 (Pipeline.mem_restRefs_of Cert.KernelIdeal.main_arg0 (by decide) (by decide))).trans
        (Cert.KernelIdeal.Tile.V_main_arg0 m c)
  · refine (θ_run Cert.ReferenceIdeal.defs _ _).mono (fun r h c => ⟨?_, (h c).2⟩) (Cert.ReferenceIdeal.Value.run (F := Ideal) m' ρ')
    rw [(h c).1, Cert.ReferenceIdeal.Read.val_main_v17_eq, hagree c]
    exact (Cert.RefValue.ref_eq_refOut _).trans
      (Cert.GaussSpec.refOut_eq_kerOut _ (Cert.FiniteInputs.real_of_pre _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
